-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x4096x4096 .f32) (main_arg1 : FVec F S4096x4096 .f32) (main_arg2 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x4096x4096 : Shape := ⟨3, ![2, 4096, 4096]⟩
abbrev S4096x4096 : Shape := ⟨2, ![4096, 4096]⟩
abbrev S4096 : Shape := ⟨1, ![4096]⟩
abbrev S2x4096x512x8 : Shape := ⟨4, ![2, 4096, 512, 8]⟩
abbrev S2x4096x512x1 : Shape := ⟨4, ![2, 4096, 512, 1]⟩
abbrev S2x4096x512 : Shape := ⟨3, ![2, 4096, 512]⟩
abbrev S2x4096x1024 : Shape := ⟨3, ![2, 4096, 1024]⟩
abbrev S4096x512x8 : Shape := ⟨3, ![4096, 512, 8]⟩
abbrev S4096x512x1 : Shape := ⟨3, ![4096, 512, 1]⟩
abbrev S4096x512 : Shape := ⟨2, ![4096, 512]⟩
abbrev S4096x1024 : Shape := ⟨2, ![4096, 1024]⟩
abbrev S8192x1024 : Shape := ⟨2, ![8192, 1024]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩

abbrev nBuf : Space → Nat
  | .hbm => 21
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S2x4096x512x8, .f32⟩
  | .hbm, ⟨4, _⟩ => ⟨S2x4096x512x1, .f32⟩
  | .hbm, ⟨5, _⟩ => ⟨S2x4096x512, .f32⟩
  | .hbm, ⟨6, _⟩ => ⟨S2x4096x512x1, .f32⟩
  | .hbm, ⟨7, _⟩ => ⟨S2x4096x512, .f32⟩
  | .hbm, ⟨8, _⟩ => ⟨S2x4096x1024, .f32⟩
  | .hbm, ⟨9, _⟩ => ⟨S2x4096x1024, .bf16⟩
  | .hbm, ⟨10, _⟩ => ⟨S4096x512x8, .f32⟩
  | .hbm, ⟨11, _⟩ => ⟨S4096x512x1, .f32⟩
  | .hbm, ⟨12, _⟩ => ⟨S4096x512, .f32⟩
  | .hbm, ⟨13, _⟩ => ⟨S4096x512x1, .f32⟩
  | .hbm, ⟨14, _⟩ => ⟨S4096x512, .f32⟩
  | .hbm, ⟨15, _⟩ => ⟨S4096x1024, .f32⟩
  | .hbm, ⟨16, _⟩ => ⟨S4096x1024, .bf16⟩
  | .hbm, ⟨17, _⟩ => ⟨S8192x1024, .bf16⟩
  | .hbm, ⟨18, _⟩ => ⟨S1x4096, .f32⟩
  | .hbm, ⟨19, _⟩ => ⟨S8192x4096, .f32⟩
  | .hbm, ⟨20, _⟩ => ⟨S2x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x4096x4096_S2x4096x512x8 : S2x4096x4096.ShapeCasts S2x4096x512x8
  slices_S2x4096x512x8_S2x4096x512x1_0_0_0_0 : S2x4096x512x8.Slices ![0, 0, 0, 0] S2x4096x512x1
  shapeCasts_S2x4096x512x1_S2x4096x512 : S2x4096x512x1.ShapeCasts S2x4096x512
  slices_S2x4096x512x8_S2x4096x512x1_0_0_0_2 : S2x4096x512x8.Slices ![0, 0, 0, 2] S2x4096x512x1
  concatenates_S2x4096x512_S2x4096x512_S2x4096x1024_d2 : Shape.Concatenates [S2x4096x512, S2x4096x512] S2x4096x1024 2
  bitsLt_bf16_f32 : FTy.bits .bf16 < FTy.bits .f32
  shapeCasts_S4096x4096_S4096x512x8 : S4096x4096.ShapeCasts S4096x512x8
  slices_S4096x512x8_S4096x512x1_0_0_0 : S4096x512x8.Slices ![0, 0, 0] S4096x512x1
  shapeCasts_S4096x512x1_S4096x512 : S4096x512x1.ShapeCasts S4096x512
  slices_S4096x512x8_S4096x512x1_0_0_2 : S4096x512x8.Slices ![0, 0, 2] S4096x512x1
  concatenates_S4096x512_S4096x512_S4096x1024_d1 : Shape.Concatenates [S4096x512, S4096x512] S4096x1024 1
  shapeCasts_S2x4096x1024_S8192x1024 : S2x4096x1024.ShapeCasts S8192x1024
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S2x4096x4096 : S8192x4096.ShapeCasts S2x4096x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S8 : Shape := ⟨1, ![8]⟩
abbrev S1x8 : Shape := ⟨2, ![1, 8]⟩
abbrev S512x8 : Shape := ⟨2, ![512, 8]⟩
abbrev S1x4096 : Shape := ⟨2, ![1, 4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S8, .f32⟩
  | .hbm, ⟨4, _⟩ => ⟨S1x8, .f32⟩
  | .hbm, ⟨5, _⟩ => ⟨S512x8, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S2x4096x4096, .f32⟩
  | .hbm, ⟨11, _⟩ => ⟨S1x1x4096, .f32⟩
  | .hbm, ⟨12, _⟩ => ⟨S2x4096x4096, .f32⟩
  | .hbm, ⟨13, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.RefRun.lean ====
/-
  The reference program's run, read back: its @main is eleven host operations in a straight line — the eight mask words,
  their re-layouts to a [4096, 4096] mask, the product W · mask, the contraction of x with it over the input axis, and
  the bias broadcast and added. Every weakly fair execution terminates with the result buffer holding those operations'
  composed term of the argument arrays, and the arguments unchanged.
-/
import proofs.«121855_j49443663512204_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The eight mask words as an array. -/
abbrev maskWords : (⟨S8, .f32⟩ : BufTy).Contents (Elt F) := fun i => FloatOps.ofBits .f32 (lit0 (S8.rowMajor i))

/-- The mask over [4096, 4096]: the eight words repeated along the input axis, the same on every row. -/
abbrev maskArr : (⟨S4096x4096, .f32⟩ : BufTy).Contents (Elt F) :=
  broadcastInDim S4096x4096 ![0, 1] bcast_S1x4096_S4096x4096_0_1
    (broadcastInDim S1x4096 ![1] bcast_S4096_S1x4096_1
      (shapeCast S4096 (broadcastInDim S512x8 ![0, 1] bcast_S1x8_S512x8_0_1 (shapeCast S1x8 (maskWords (F := F)) shapeCasts_S8_S1x8))
        shapeCasts_S512x8_S4096))

/-- The result as the operations' composed term of the three argument arrays. -/
abbrev resultTerm (x : (⟨S2x4096x4096, .f32⟩ : BufTy).Contents (Elt F)) (w : (⟨S4096x4096, .f32⟩ : BufTy).Contents (Elt F))
    (bias : (⟨S4096, .f32⟩ : BufTy).Contents (Elt F)) : (⟨S2x4096x4096, .f32⟩ : BufTy).Contents (Elt F) :=
  addf (Host.dotGeneral dot_S2x4096x4096_S4096x4096_S2x4096x4096_2_1_01_0_n_n none x (mulf w (maskArr (F := F))))
    (broadcastInDim S2x4096x4096 ![0, 1, 2] bcast_S1x1x4096_S2x4096x4096_0_1_2
      (broadcastInDim S1x1x4096 ![2] bcast_S4096_S1x1x4096_2 bias))

/-- @main's 11 operations, in order. -/
abbrev ops : List (HloOp τ sig (Elt F)) :=
  [ nullary main_cst (fun i => FloatOps.ofBits .f32 (lit0 (S8.rowMajor i))),
    reshape main_cst main_v0 rfl shapeCasts_S8_S1x8,
    unary main_v0 main_v1 (broadcastInDim S512x8 ![0, 1] bcast_S1x8_S512x8_0_1 : (⟨S1x8, .f32⟩ : BufTy).Contents (Elt F) → (⟨S512x8, .f32⟩ : BufTy).Contents (Elt F)),
    reshape main_v1 main_v2 rfl shapeCasts_S512x8_S4096,
    unary main_v2 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S4096x4096 ![0, 1] bcast_S1x4096_S4096x4096_0_1 : (⟨S1x4096, .f32⟩ : BufTy).Contents (Elt F) → (⟨S4096x4096, .f32⟩ : BufTy).Contents (Elt F)),
    binary main_arg1 main_v4 main_v5 (mulf : (⟨S4096x4096, .f32⟩ : BufTy).Contents (Elt F) → (⟨S4096x4096, .f32⟩ : BufTy).Contents (Elt F) → (⟨S4096x4096, .f32⟩ : BufTy).Contents (Elt F)),
    binary main_arg0 main_v5 main_v6 ((fun l r => Host.dotGeneral dot_S2x4096x4096_S4096x4096_S2x4096x4096_2_1_01_0_n_n none l r) : (⟨S2x4096x4096, .f32⟩ : BufTy).Contents (Elt F) → (⟨S4096x4096, .f32⟩ : BufTy).Contents (Elt F) → (⟨S2x4096x4096, .f32⟩ : BufTy).Contents (Elt F)),
    unary main_arg2 main_v7 (broadcastInDim S1x1x4096 ![2] bcast_S4096_S1x1x4096_2 : (⟨S4096, .f32⟩ : BufTy).Contents (Elt F) → (⟨S1x1x4096, .f32⟩ : BufTy).Contents (Elt F)),
    unary main_v7 main_v8 (broadcastInDim S2x4096x4096 ![0, 1, 2] bcast_S1x1x4096_S2x4096x4096_0_1_2 : (⟨S1x1x4096, .f32⟩ : BufTy).Contents (Elt F) → (⟨S2x4096x4096, .f32⟩ : BufTy).Contents (Elt F)),
    binary main_v6 main_v8 main_v9 (addf : (⟨S2x4096x4096, .f32⟩ : BufTy).Contents (Elt F) → (⟨S2x4096x4096, .f32⟩ : BufTy).Contents (Elt F) → (⟨S2x4096x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., unary_bufs_sub .., unary_bufs_sub .., binary_bufs_sub .., binary_bufs_sub .., unary_bufs_sub .., unary_bufs_sub .., binary_bufs_sub ..⟩

/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = resultTerm (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HostRun

end
-- ==== Proof.Spec.lean ====
/-
  The mathematics shared by the two programs of this certificate, with no program in sight.

  Both compute, for a batch `b`, a row `s` and an output feature `o`,
      out[b, s, o] = (∑ over the KEPT input columns d of x[b, s, d] · W[o, d]) + bias[o],
  where a column `d` of the 4096 is kept when `d mod 8` is 0 or 2 (two columns of every group of eight: 1024 in all).
  One program multiplies `W` by a 0/1 mask and contracts over all 4096 columns; the other first gathers the 1024
  kept columns of `x` and of `W` — the 512 columns `8g` followed by the 512 columns `8g + 2` — and contracts over those.
  Over the extended reals a product with zero is zero and a sum may be re-ordered and re-grouped freely (addition is
  commutative and associative, no cancellation is used), so the two sums are equal for EVERY extended-real input:
  no finiteness is needed.
-/
import Idealize.ShloMosaic.PureOps.Ideal
import Idealize.ShloMosaic.Lib.ValueIdx
import Mathlib.Algebra.BigOperators.Group.Finset.Basic

noncomputable section

open scoped BigOperators

namespace Cert.SparseCols

open Idealize.ShloMosaic Idealize.ShloMosaic.ValueIdx

/-- The column of the full input axis that position `k` of the compacted axis holds: the first 512 positions are the
    columns `8k`, the last 512 the columns `8(k - 512) + 2`. -/
def keptCol (k : Fin 1024) : Fin 4096 :=
  ⟨if k.val < 512 then 8 * k.val else 8 * (k.val - 512) + 2, by have := k.isLt; split <;> omega⟩

theorem keptCol_val (k : Fin 1024) : (keptCol k).val = if k.val < 512 then 8 * k.val else 8 * (k.val - 512) + 2 := rfl

theorem keptCol_injective : Function.Injective keptCol := by
  intro k k' h
  have h' := congrArg Fin.val h
  rw [keptCol_val, keptCol_val] at h'
  have := k.isLt; have := k'.isLt
  refine Fin.ext ?_
  split at h' <;> split at h' <;> omega

/-- The 0/1 mask over the input columns: 1 on the kept columns, 0 elsewhere. -/
def maskAt (d : Fin 4096) : EReal := if d.val % 8 = 0 ∨ d.val % 8 = 2 then 1 else 0

theorem maskAt_keptCol (k : Fin 1024) : maskAt (keptCol k) = 1 := by
  unfold maskAt
  rw [if_pos]
  rw [keptCol_val]
  split <;> omega

theorem maskAt_of_not_range (d : Fin 4096) (h : d ∉ Set.range keptCol) : maskAt d = 0 := by
  unfold maskAt
  rw [if_neg]
  intro hd
  apply h
  have := d.isLt
  rcases hd with h0 | h2
  · refine ⟨⟨d.val / 8, by omega⟩, Fin.ext ?_⟩
    rw [keptCol_val]
    show (if d.val / 8 < 512 then 8 * (d.val / 8) else 8 * (d.val / 8 - 512) + 2) = d.val
    rw [if_pos (by omega)]; omega
  · refine ⟨⟨512 + d.val / 8, by omega⟩, Fin.ext ?_⟩
    rw [keptCol_val]
    show (if 512 + d.val / 8 < 512 then 8 * (512 + d.val / 8) else 8 * (512 + d.val / 8 - 512) + 2) = d.val
    rw [if_neg (by omega)]; omega

/-- THE LAW that joins the two programs: a contraction over all 4096 columns against a masked second factor is the
    contraction over the 1024 kept columns. On the extended reals: the masked-out terms are `f d · (g d · 0) = 0`, the kept
    ones `f d · (g d · 1) = f d · g d`, and the sum over the kept columns is re-indexed along the injection `keptCol`. -/
theorem masked_sum (f g : Fin 4096 → EReal) :
    ∑ d : Fin 4096, f d * (g d * maskAt d) = ∑ k : Fin 1024, f (keptCol k) * g (keptCol k) := by
  refine (Fintype.sum_of_injective keptCol keptCol_injective _ _ (fun d hd => ?_) (fun k => ?_)).symm
  · rw [maskAt_of_not_range d hd, mul_zero, mul_zero]
  · rw [maskAt_keptCol, mul_one]

/-- The result both programs compute, entry by entry, as a function of the three argument arrays. -/
def entry (x : (⟨3, ![2, 4096, 4096]⟩ : Shape).Idx → EReal) (w : (⟨2, ![4096, 4096]⟩ : Shape).Idx → EReal)
    (bias : (⟨1, ![4096]⟩ : Shape).Idx → EReal) (b : Fin 2) (s : Fin 4096) (o : Fin 4096) : EReal :=
  (∑ k : Fin 1024, x (ix3 b s (keptCol k)) * w (ix2 o (keptCol k))) + bias (ix1 o)

/-- The whole result array. -/
def result (x : (⟨3, ![2, 4096, 4096]⟩ : Shape).Idx → EReal) (w : (⟨2, ![4096, 4096]⟩ : Shape).Idx → EReal)
    (bias : (⟨1, ![4096]⟩ : Shape).Idx → EReal) : (⟨3, ![2, 4096, 4096]⟩ : Shape).Idx → EReal :=
  fun i => entry x w bias (i 0) (i 1) (i 2)

theorem result_ix3 (x : (⟨3, ![2, 4096, 4096]⟩ : Shape).Idx → EReal) (w : (⟨2, ![4096, 4096]⟩ : Shape).Idx → EReal)
    (bias : (⟨1, ![4096]⟩ : Shape).Idx → EReal) (b : Fin 2) (s : Fin 4096) (o : Fin 4096) :
    result x w bias (ix3 b s o) = entry x w bias b s o := rfl

end Cert.SparseCols

end
-- ==== Proof.RefValue.lean ====
/-
  The reference program's result, entry by entry. Its composed term adds the broadcast bias to the contraction of x with
  W · mask over all 4096 input columns, the mask being the eight words 1, 0, 1, 0, 0, 0, 0, 0 repeated along the input
  axis: at column d it is 1 when d mod 8 is 0 or 2, and 0 otherwise. Read at (b, s, o) the term is
      (∑ over all columns d of x[b, s, d] · (W[o, d] · mask d)) + bias[o],
  which the masked-sum law turns into the sum over the kept columns alone.
-/
import proofs.«121855_j49443663512204_2_alg».proof.Proof.Spec
import proofs.«121855_j49443663512204_2_alg».proof.Proof.RefRun
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.SparseCols

/-- The dimension numbers of the reference's contraction: x's axis 2 against W's axis 1. -/
abbrev D := dot_S2x4096x4096_S4096x4096_S2x4096x4096_2_1_01_0_n_n

/-- The eight mask words: positions 0 and 2 hold the pattern of 1.0, the other six the pattern of +0.0. -/
theorem maskWords_apply (r : Fin 8) :
    HostRun.maskWords (F := Ideal) (ix1 r) = (if r.val = 0 ∨ r.val = 2 then 1 else 0 : EReal) := by
  have hr : S8.rowMajor (ix1 r) = r := Fin.ext (Shape.rowMajor_val_one _)
  show Ideal.ofBits .f32 (lit0 (S8.rowMajor (ix1 r))) = _
  rw [hr]
  match r with
  | ⟨0, _⟩ => exact Ideal.ofBits_one_f32
  | ⟨1, _⟩ => exact Ideal.ofBits_zero_f32
  | ⟨2, _⟩ => exact Ideal.ofBits_one_f32
  | ⟨3, _⟩ => exact Ideal.ofBits_zero_f32
  | ⟨4, _⟩ => exact Ideal.ofBits_zero_f32
  | ⟨5, _⟩ => exact Ideal.ofBits_zero_f32
  | ⟨6, _⟩ => exact Ideal.ofBits_zero_f32
  | ⟨7, _⟩ => exact Ideal.ofBits_zero_f32

/-- The mask array at row o, column d is the mask of column d: the five re-layouts, read outermost first, lead from
    (o, d) to (0, d), to d, to (d / 8, d mod 8), to (0, d mod 8), to the word at position d mod 8. -/
theorem maskArr_apply (o d : Fin 4096) : HostRun.maskArr (F := Ideal) (ix2 o d) = maskAt d := by
  have h8 : d.val % 8 < 8 := Nat.mod_lt _ (by norm_num)
  have h512 : d.val / 8 < 512 := by have := d.isLt; omega
  -- [1, 4096] broadcast to [4096, 4096] along both axes: (o, d) reads (0, d)
  refine (broadcastInDim_apply _ _ _ (ix2 o d) (ix2 (⟨0, Nat.one_pos⟩ : Fin 1) d)
    (fun a => match a with | ⟨0, _⟩ => rfl | ⟨1, _⟩ => rfl)).trans ?_
  -- [4096] broadcast to [1, 4096] along axis 1: (0, d) reads d
  refine (broadcastInDim_apply _ _ _ _ (ix1 d) (fun a => match a with | ⟨0, _⟩ => rfl)).trans ?_
  -- [512, 8] flattened to [4096]: d reads (d / 8, d mod 8)
  refine (shapeCast_apply _ _ (ix1 d) (ix2 (⟨d.val / 8, h512⟩ : Fin 512) (⟨d.val % 8, h8⟩ : Fin 8))
    (by rw [Shape.rowMajor_val_one, Shape.rowMajor_val_two]
        show d.val / 8 * 8 + d.val % 8 = d.val
        omega)).trans ?_
  -- [1, 8] broadcast to [512, 8] along both axes: (d / 8, d mod 8) reads (0, d mod 8)
  refine (broadcastInDim_apply _ _ _ _ (ix2 (⟨0, Nat.one_pos⟩ : Fin 1) (⟨d.val % 8, h8⟩ : Fin 8))
    (fun a => match a with | ⟨0, _⟩ => rfl | ⟨1, _⟩ => rfl)).trans ?_
  -- [8] reshaped to [1, 8]: (0, d mod 8) reads d mod 8
  refine (shapeCast_apply _ _ _ (ix1 (⟨d.val % 8, h8⟩ : Fin 8))
    (by rw [Shape.rowMajor_val_one, Shape.rowMajor_val_two]
        show d.val % 8 = 0 * 8 + d.val % 8
        omega)).trans ?_
  exact maskWords_apply _

/-- The reference's composed term is the shared result: the bias read through its two broadcasts is bias[o], the
    contraction read at (b, s, o) is the sum over all columns d of x[b, s, d] · (W[o, d] · mask d), and the masked-sum
    law reduces that to the kept columns. -/
theorem resultTerm_eq (x : FVec Ideal S2x4096x4096 .f32) (w : FVec Ideal S4096x4096 .f32) (bias : FVec Ideal S4096 .f32) :
    Cert.ReferenceIdeal.HostRun.resultTerm (F := Ideal) x w bias = Cert.SparseCols.result x w bias := by
  funext i
  obtain ⟨b, s, o, rfl⟩ : ∃ (b : Fin 2) (s : Fin 4096) (o : Fin 4096), i = ix3 b s o := ⟨i 0, i 1, i 2, eq_ix3 i⟩
  rw [result_ix3]
  unfold entry
  -- the bias: [4096] to [1, 1, 4096] along axis 2, then to [2, 4096, 4096] along all three axes
  have hbias : broadcastInDim S2x4096x4096 ![0, 1, 2] bcast_S1x1x4096_S2x4096x4096_0_1_2
      (broadcastInDim S1x1x4096 ![2] bcast_S4096_S1x1x4096_2 bias) (ix3 b s o) = bias (ix1 o) := by
    refine (broadcastInDim_apply _ _ _ (ix3 b s o) (ix3 (⟨0, Nat.one_pos⟩ : Fin 1) (⟨0, Nat.one_pos⟩ : Fin 1) o)
      (fun a => match a with | ⟨0, _⟩ => rfl | ⟨1, _⟩ => rfl | ⟨2, _⟩ => rfl)).trans ?_
    exact broadcastInDim_apply _ _ _ _ (ix1 o) (fun a => match a with | ⟨0, _⟩ => rfl)
  -- the contraction: over x's last axis and W's last axis
  have hdot : Host.dotGeneral D none x (mulf w (HostRun.maskArr (F := Ideal))) (ix3 b s o)
      = ∑ k : Fin 1024, x (ix3 b s (keptCol k)) * w (ix2 o (keptCol k)) := by
    show FloatOps.dotGeneral D none _ x _ (ix3 b s o) = _
    rw [Ideal.dotGeneral_apply, ← Equiv.sum_comp (contrEquiv1 D 4096 rfl rfl).symm]
    refine (Finset.sum_congr rfl fun c _ => ?_).trans (masked_sum (fun d => x (ix3 b s d)) (fun d => w (ix2 o d)))
    have c3 := contrEquiv1_symm_val D 4096 rfl rfl c
    have l3 : D.lhsIdx (ix3 b s o) ((contrEquiv1 D 4096 rfl rfl).symm c) = ix3 b s c := by
      funext ax; apply Fin.ext
      match ax with
      | ⟨0, _⟩ => simp [DotDims.lhsIdx, dot_S2x4096x4096_S4096x4096_S2x4096x4096_2_1_01_0_n_n]; rfl
      | ⟨1, _⟩ => simp [DotDims.lhsIdx, dot_S2x4096x4096_S4096x4096_S2x4096x4096_2_1_01_0_n_n]; rfl
      | ⟨2, _⟩ => exact (DotDims.lhsIdx_val_of_single D rfl _ _).trans c3
    have r3 : D.rhsIdx (ix3 b s o) ((contrEquiv1 D 4096 rfl rfl).symm c) = ix2 o c := by
      funext ax; apply Fin.ext
      match ax with
      | ⟨0, _⟩ => simp [DotDims.rhsIdx, dot_S2x4096x4096_S4096x4096_S2x4096x4096_2_1_01_0_n_n]; rfl
      | ⟨1, _⟩ => exact (DotDims.rhsIdx_val_of_single D rfl _ _).trans c3
    rw [l3, r3, mulf_apply, maskArr_apply]
  exact (addf_apply _ _ _).trans (by rw [hdot, hbias])

end Cert.ReferenceIdeal.RefValue

end
-- ==== Proof.Compact.lean ====
/-
  The kernel program's host lines around its one region, as functions of the argument arrays read at an entry.

  Before the region the 4096 input columns of `x` and of `W` are viewed as 512 groups of eight, columns 0 and 2 of every
  group are cut out, and the two cuts are set side by side: position `k` of the resulting 1024 columns holds input column
  `keptCol k` (the 512 columns `8g`, then the 512 columns `8g + 2`). The rows of `x` are flattened, row `r = 4096·b + s`
  of the flat array being row `(b, s)`; the bias becomes a one-row array. After the region the flat [8192, 4096]
  result is viewed [2, 4096, 4096] again. A change of float format is the identity on extended reals.
-/
import proofs.«121855_j49443663512204_2_alg».proof.Proof.Gen.KernelIdeal
import proofs.«121855_j49443663512204_2_alg».proof.Proof.Spec
import Idealize.ShloMosaic.Lib.Pipeline.Value
import Idealize.ShloMosaic.Lib.ValueLayout
import Idealize.ShloMosaic.Lib.ValueIdx

noncomputable section

namespace Cert.KernelIdeal.Compact

open Cert.KernelIdeal Cert.KernelIdeal.Gen Idealize.ShloMosaic Idealize.ShloMosaic.ValueIdx Cert.SparseCols

/-! ## The host terms -/

section Terms
variable {F : FTy → Type} [FloatOps F]

/-- Column `o` of every group of eight input columns of `x`, as a [2, 4096, 512] array. -/
abbrev xGroupCol (o : Nat) (hs : S2x4096x512x8.Slices ![0, 0, 0, o] S2x4096x512x1) (x : FVec F S2x4096x4096 .f32) : FVec F S2x4096x512 .f32 :=
  shapeCast S2x4096x512
    (extractStridedSlice S2x4096x512x1 ![0, 0, 0, o] (shapeCast S2x4096x512x8 x shapeCasts_S2x4096x4096_S2x4096x512x8) hs)
    shapeCasts_S2x4096x512x1_S2x4096x512

/-- The 1024 kept columns of `x`, its rows flattened: what the region's first window stages. -/
abbrev compactX (x : FVec F S2x4096x4096 .f32) : FVec F S8192x1024 .bf16 :=
  shapeCast S8192x1024
    (truncf .bf16
      (concatenate S2x4096x1024 2
        [⟨S2x4096x512, xGroupCol 0 slices_S2x4096x512x8_S2x4096x512x1_0_0_0_0 x⟩,
         ⟨S2x4096x512, xGroupCol 2 slices_S2x4096x512x8_S2x4096x512x1_0_0_0_2 x⟩]
        concatenates_S2x4096x512_S2x4096x512_S2x4096x1024_d2)
      bitsLt_bf16_f32)
    shapeCasts_S2x4096x1024_S8192x1024

/-- Column `o` of every group of eight input columns of `W`, as a [4096, 512] array. -/
abbrev wGroupCol (o : Nat) (hs : S4096x512x8.Slices ![0, 0, o] S4096x512x1) (w : FVec F S4096x4096 .f32) : FVec F S4096x512 .f32 :=
  shapeCast S4096x512
    (extractStridedSlice S4096x512x1 ![0, 0, o] (shapeCast S4096x512x8 w shapeCasts_S4096x4096_S4096x512x8) hs)
    shapeCasts_S4096x512x1_S4096x512

/-- The 1024 kept columns of `W`: what the region's second window stages. -/
abbrev compactW (w : FVec F S4096x4096 .f32) : FVec F S4096x1024 .bf16 :=
  truncf .bf16
    (concatenate S4096x1024 1
      [⟨S4096x512, wGroupCol 0 slices_S4096x512x8_S4096x512x1_0_0_0 w⟩,
       ⟨S4096x512, wGroupCol 2 slices_S4096x512x8_S4096x512x1_0_0_2 w⟩]
      concatenates_S4096x512_S4096x512_S4096x1024_d1)
    bitsLt_bf16_f32

/-- The bias as a one-row array: what the region's third window stages. -/
abbrev biasRow (bias : FVec F S4096 .f32) : FVec F S1x4096 .f32 := shapeCast S1x4096 bias shapeCasts_S4096_S1x4096

/-- The flat result viewed [2, 4096, 4096]: the host line after the region. -/
abbrev unflatten (y : FVec F S8192x4096 .f32) : FVec F S2x4096x4096 .f32 := shapeCast S2x4096x4096 y shapeCasts_S8192x4096_S2x4096x4096

end Terms

/-! ## Read at an entry -/

/-- Group `g`'s column `o` of `x` at row `(b, s)` is input column `8g + o`. -/
theorem xGroupCol_apply (o : Nat) (ho : o < 8) (hs : S2x4096x512x8.Slices ![0, 0, 0, o] S2x4096x512x1) (x : FVec Ideal S2x4096x4096 .f32)
    (b : Fin 2) (s : Fin 4096) (g : Fin 512) (d : Fin 4096) (hd : d.val = 8 * g.val + o) :
    xGroupCol (F := Ideal) o hs x (ix3 b s g) = x (ix3 b s d) := by
  refine (shapeCast_apply _ _ (ix3 b s g) (ix4 b s g (0 : Fin 1)) (by
      rw [Shape.rowMajor_val_four, Shape.rowMajor_val_three]
      show ((b.val * 4096 + s.val) * 512 + g.val) * 1 + 0 = (b.val * 4096 + s.val) * 512 + g.val
      omega)).trans ?_
  refine (extractStridedSlice_apply _ _ _ (ix4 b s g (0 : Fin 1)) (ix4 b s g (⟨o, ho⟩ : Fin 8)) (fun ax => by
      match ax with
      | ⟨0, _⟩ => exact (Nat.zero_add _).symm
      | ⟨1, _⟩ => exact (Nat.zero_add _).symm
      | ⟨2, _⟩ => exact (Nat.zero_add _).symm
      | ⟨3, _⟩ => exact (Nat.add_zero _).symm)).trans ?_
  exact shapeCast_apply _ _ (ix4 b s g (⟨o, ho⟩ : Fin 8)) (ix3 b s d) (by
      rw [Shape.rowMajor_val_three, Shape.rowMajor_val_four]
      show (b.val * 4096 + s.val) * 4096 + d.val = ((b.val * 4096 + s.val) * 512 + g.val) * 8 + o
      omega)

/-- Row `r = 4096·b + s`, position `k` of the compacted `x` is `x` at row `(b, s)`, column `keptCol k`. -/
theorem compactX_apply (x : FVec Ideal S2x4096x4096 .f32) (r : Fin 8192) (k : Fin 1024) (b : Fin 2) (s : Fin 4096)
    (hr : r.val = b.val * 4096 + s.val) :
    compactX (F := Ideal) x (ix2 r k) = x (ix3 b s (keptCol k)) := by
  refine (shapeCast_apply _ _ (ix2 r k) (ix3 b s k) (by
      rw [Shape.rowMajor_val_three, Shape.rowMajor_val_two]
      show (b.val * 4096 + s.val) * 1024 + k.val = r.val * 1024 + k.val
      omega)).trans ?_
  refine (truncf_apply (φ := .f32) (ψ := .bf16) _ bitsLt_bf16_f32 (ix3 b s k)).trans ?_
  by_cases hk : k.val < 512
  · refine (concatenate_pair_apply_left (t := S2x4096x1024) (s₁ := S2x4096x512) (s₂ := S2x4096x512) _ _ _ _ (ix3 b s k) rfl (ix3 b s (⟨k.val, hk⟩ : Fin 512)) (fun ax => by
        match ax with
        | ⟨0, _⟩ => rfl
        | ⟨1, _⟩ => rfl
        | ⟨2, _⟩ => rfl)).trans ?_
    exact xGroupCol_apply 0 (by omega) _ x b s ⟨k.val, hk⟩ (keptCol k) (by rw [keptCol_val, if_pos hk]; rfl)
  · have hk2 : k.val - 512 < 512 := by have := k.isLt; omega
    refine (concatenate_pair_apply_right (t := S2x4096x1024) (s₁ := S2x4096x512) (s₂ := S2x4096x512) _ _ _ _ (ix3 b s k) rfl rfl (ix3 b s (⟨k.val - 512, hk2⟩ : Fin 512)) (fun ax hne => by
        match ax, hne with
        | ⟨0, _⟩, _ => rfl
        | ⟨1, _⟩, _ => rfl
        | ⟨2, _⟩, hne => exact absurd rfl hne) (by
        show (k.val - 512) + 512 = k.val
        omega)).trans ?_
    exact xGroupCol_apply 2 (by omega) _ x b s ⟨k.val - 512, hk2⟩ (keptCol k) (by rw [keptCol_val, if_neg hk])

/-- Group `g`'s column `o` of `W` at row `n` is input column `8g + o`. -/
theorem wGroupCol_apply (o : Nat) (ho : o < 8) (hs : S4096x512x8.Slices ![0, 0, o] S4096x512x1) (w : FVec Ideal S4096x4096 .f32)
    (n : Fin 4096) (g : Fin 512) (d : Fin 4096) (hd : d.val = 8 * g.val + o) :
    wGroupCol (F := Ideal) o hs w (ix2 n g) = w (ix2 n d) := by
  refine (shapeCast_apply _ _ (ix2 n g) (ix3 n g (0 : Fin 1)) (by
      rw [Shape.rowMajor_val_three, Shape.rowMajor_val_two]
      show (n.val * 512 + g.val) * 1 + 0 = n.val * 512 + g.val
      omega)).trans ?_
  refine (extractStridedSlice_apply _ _ _ (ix3 n g (0 : Fin 1)) (ix3 n g (⟨o, ho⟩ : Fin 8)) (fun ax => by
      match ax with
      | ⟨0, _⟩ => exact (Nat.zero_add _).symm
      | ⟨1, _⟩ => exact (Nat.zero_add _).symm
      | ⟨2, _⟩ => exact (Nat.add_zero _).symm)).trans ?_
  exact shapeCast_apply _ _ (ix3 n g (⟨o, ho⟩ : Fin 8)) (ix2 n d) (by
      rw [Shape.rowMajor_val_two, Shape.rowMajor_val_three]
      show n.val * 4096 + d.val = (n.val * 512 + g.val) * 8 + o
      omega)

/-- Row `n`, position `k` of the compacted `W` is `W` at row `n`, column `keptCol k`. -/
theorem compactW_apply (w : FVec Ideal S4096x4096 .f32) (n : Fin 4096) (k : Fin 1024) :
    compactW (F := Ideal) w (ix2 n k) = w (ix2 n (keptCol k)) := by
  refine (truncf_apply (φ := .f32) (ψ := .bf16) _ bitsLt_bf16_f32 (ix2 n k)).trans ?_
  by_cases hk : k.val < 512
  · refine (concatenate_pair_apply_left (t := S4096x1024) (s₁ := S4096x512) (s₂ := S4096x512) _ _ _ _ (ix2 n k) rfl (ix2 n (⟨k.val, hk⟩ : Fin 512)) (fun ax => by
        match ax with
        | ⟨0, _⟩ => rfl
        | ⟨1, _⟩ => rfl)).trans ?_
    exact wGroupCol_apply 0 (by omega) _ w n ⟨k.val, hk⟩ (keptCol k) (by rw [keptCol_val, if_pos hk]; rfl)
  · have hk2 : k.val - 512 < 512 := by have := k.isLt; omega
    refine (concatenate_pair_apply_right (t := S4096x1024) (s₁ := S4096x512) (s₂ := S4096x512) _ _ _ _ (ix2 n k) rfl rfl (ix2 n (⟨k.val - 512, hk2⟩ : Fin 512)) (fun ax hne => by
        match ax, hne with
        | ⟨0, _⟩, _ => rfl
        | ⟨1, _⟩, hne => exact absurd rfl hne) (by
        show (k.val - 512) + 512 = k.val
        omega)).trans ?_
    exact wGroupCol_apply 2 (by omega) _ w n ⟨k.val - 512, hk2⟩ (keptCol k) (by rw [keptCol_val, if_neg hk])

/-- The one row of the bias array at column `o` is the bias at `o`. -/
theorem biasRow_apply (bias : FVec Ideal S4096 .f32) (u : Fin 1) (o : Fin 4096) :
    biasRow (F := Ideal) bias (ix2 u o) = bias (ix1 o) :=
  shapeCast_a_1a_apply _ _ u o

/-- Entry `(b, s, o)` of the result is entry `(4096·b + s, o)` of the flat one. -/
theorem unflatten_apply (y : FVec Ideal S8192x4096 .f32) (b : Fin 2) (s : Fin 4096) (o : Fin 4096) (r : Fin 8192)
    (hr : r.val = b.val * 4096 + s.val) :
    unflatten (F := Ideal) y (ix3 b s o) = y (ix2 r o) :=
  shapeCast_apply _ _ (ix3 b s o) (ix2 r o) (by
    rw [Shape.rowMajor_val_two, Shape.rowMajor_val_three]
    show r.val * 4096 + o.val = (b.val * 4096 + s.val) * 4096 + o.val
    omega)

end Cert.KernelIdeal.Compact

end
-- ==== Proof.BlockProduct.lean ====
/-
  The kernel body's arithmetic at one entry of a block. From a [1024, 1024] block `A` of compacted rows of `x`, a
  [1024, 1024] block `B` of compacted rows of `W` and a one-row block `c` of the bias, the body stores
  `A · Bᵀ + c` broadcast over the rows: entry `(p, q)` is `(∑ k, A[p, k] · B[q, k]) + c[0, q]`. The matrix unit's product
  starts from a zero accumulator, `B` is transposed first, and on extended reals the change of float format is the identity.
-/
import proofs.«121855_j49443663512204_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockProduct

open Cert.KernelIdeal Cert.KernelIdeal.Gen Idealize.ShloMosaic Idealize.ShloMosaic.ValueIdx

/-- The block product's dimension numbers: rows times columns, one contracted axis of extent 1024. -/
abbrev D : DotDims S1024x1024 S1024x1024 S1024x1024 := dot_S1024x1024_S1024x1024_S1024x1024_1_0_0_1_n_n

theorem lhs_row (j : S1024x1024.Idx) (k : D.contr.Idx) : (D.lhsIdx j k 0 : ℕ) = j 0 := by
  simp [DotDims.lhsIdx, D, dot_S1024x1024_S1024x1024_S1024x1024_1_0_0_1_n_n]; rfl
theorem rhs_col (j : S1024x1024.Idx) (k : D.contr.Idx) : (D.rhsIdx j k 1 : ℕ) = j 1 := by
  simp [DotDims.rhsIdx, D, dot_S1024x1024_S1024x1024_S1024x1024_1_0_0_1_n_n]; rfl

/-- The contraction's positions are `Fin 1024`. -/
abbrev contr : D.contr.Idx ≃ Fin 1024 := contrEquiv1 D 1024 rfl rfl

/-- At result entry `(p, q)` and contraction position `c` the left operand is read at `(p, c)` … -/
theorem lhsIdx_eq (p q c : Fin 1024) : D.lhsIdx (ix2 p q) (contr.symm c) = ix2 p c := by
  funext a
  refine Fin.ext ?_
  match a with
  | ⟨0, _⟩ => exact lhs_row _ _
  | ⟨1, _⟩ => exact (D.lhsIdx_val_of_single rfl _ _).trans (contrEquiv1_symm_val D 1024 rfl rfl c)

/-- … and the right operand at `(c, q)`. -/
theorem rhsIdx_eq (p q c : Fin 1024) : D.rhsIdx (ix2 p q) (contr.symm c) = ix2 c q := by
  funext a
  refine Fin.ext ?_
  match a with
  | ⟨0, _⟩ => exact (D.rhsIdx_val_of_single rfl _ _).trans (contrEquiv1_symm_val D 1024 rfl rfl c)
  | ⟨1, _⟩ => exact rhs_col _ _

/-- THE BODY AT AN ENTRY: `(A · Bᵀ + c)[p, q] = (∑ k, A[p, k] · B[q, k]) + c[0, q]`. -/
theorem pay_apply (x0 x1 : FVec Ideal S1024x1024 .bf16) (x2 : FVec Ideal S1x1024 .f32) (p q : Fin 1024) :
    k0_pay1 (F := Ideal) x0 x1 x2 (ix2 p q) = (∑ k : Fin 1024, x0 (ix2 p k) * x1 (ix2 q k)) + x2 (ix2 (0 : Fin 1) q) := by
  unfold k0_pay1
  dsimp only
  refine (addf_apply _ _ (ix2 p q)).trans ?_
  refine congrArg₂ (· + ·) ?_ ?_
  · refine (Ideal.matmul_constant_zero_apply D none _ _ (ix2 p q)).trans ?_
    refine (Equiv.sum_comp contr.symm _).symm.trans ?_
    refine Finset.sum_congr rfl fun c _ => ?_
    refine congrArg₂ (· * ·) ?_ ?_
    · exact (congrFun (shapeCast_self x0 _) _).trans (congrArg x0 (lhsIdx_eq p q c))
    · refine (congrArg _ (rhsIdx_eq p q c)).trans ?_
      refine (transpose_ix2_apply _ _ c q).trans ?_
      exact congrFun (shapeCast_self x1 _) _
  · refine (broadcastTo_1b_ab_apply _ _ p q).trans ?_
    exact (congrFun (shapeCast_self _ _) _).trans (congrFun (shapeCast_self x2 _) _)

end Cert.KernelIdeal.BlockProduct

end
-- ==== Proof.Blocks.lean ====
/-
  From blocks to the array. The region's grid is 8 × 4: point `(I, J)` stages rows `1024·I …` of the compacted `x`, rows
  `1024·J …` of the compacted `W` and columns `1024·J …` of the bias row, and writes back block `(I, J)` of the flat
  [8192, 4096] result. Every entry `(r, o)` of the block is `(∑ k, xc[r, k] · wc[o, k]) + bias[0, o]` — a function of the
  ARRAY index `(r, o)` alone — and the 32 blocks tile the array, so after the region the array is that function.
-/
import proofs.«121855_j49443663512204_2_alg».proof.Proof.Gen.KernelIdeal.Frame
import proofs.«121855_j49443663512204_2_alg».proof.Proof.BlockProduct
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-! ## The flat result -/

/-- Entry `(r, o)` of the flat result: row `r` of the first array against row `o` of the second, plus the one-row
    array's column `o`. -/
def flatEntry (A : FVec Ideal S8192x1024 .bf16) (B : FVec Ideal S4096x1024 .bf16) (cRow : FVec Ideal S1x4096 .f32)
    (r : Fin 8192) (o : Fin 4096) : EReal :=
  (∑ k : Fin 1024, A (ix2 r k) * B (ix2 o k)) + cRow (ix2 (0 : Fin 1) o)

/-- The flat [8192, 4096] result. -/
def flat (A : FVec Ideal S8192x1024 .bf16) (B : FVec Ideal S4096x1024 .bf16) (cRow : FVec Ideal S1x4096 .f32) :
    FVec Ideal S8192x4096 .f32 :=
  fun i => flatEntry A B cRow (i 0) (i 1)

theorem flat_ix2 (A : FVec Ideal S8192x1024 .bf16) (B : FVec Ideal S4096x1024 .bf16) (cRow : FVec Ideal S1x4096 .f32)
    (r : Fin 8192) (o : Fin 4096) : flat A B cRow (ix2 r o) = flatEntry A B cRow r o := rfl

/-- Entry `(p, q)` of a block's product. -/
def blockEntry (x0 x1 : FVec Ideal S1024x1024 .bf16) (x2 : FVec Ideal S1x1024 .f32) (p q : Fin 1024) : EReal :=
  (∑ k : Fin 1024, x0 (ix2 p k) * x1 (ix2 q k)) + x2 (ix2 (0 : Fin 1) q)

/-- The body's payload as one function of the block index. -/
theorem pay_eq (x0 x1 : FVec Ideal S1024x1024 .bf16) (x2 : FVec Ideal S1x1024 .f32) :
    k0_pay1 (F := Ideal) x0 x1 x2 = fun y => blockEntry x0 x1 x2 (y 0) (y 1) := by
  funext y
  obtain ⟨p, q, rfl⟩ : ∃ (p q : Fin 1024), y = ix2 p q := ⟨y 0, y 1, eq_ix2 y⟩
  exact BlockProduct.pay_apply x0 x1 x2 p q

variable (m : (ℓ : Loc nD τ sig) → Buf (Elt Ideal) ℓ)

theorem hz : (![0, 0] : Fin 2 → Nat) = fun _ => 0 := funext fun a => by fin_cases a <;> rfl

/-- The printed index maps, decided over the 32 grid points: the row block of `x` and of the result move together, the
    row block of `W` and the column block of the bias move with the result's column block, the other block indices are 0. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the 8 × 4 tiling is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- ONE ENTRY of what a point computes: entry `(p, q)` of the block product of the three staged blocks at point `t` is
    the flat result at the array index `(r, o)` that sits at `(p, q)` inside block `t` of the result — each staged block
    is its array read where the result's block index says. -/
theorem block_entry (c : Dev nD) (t : Fin cfg0.N) (p q : Fin 1024) (r : Fin 8192) (o : Fin 4096)
    (hr : r.val = win0_3.index t (0 : Fin 2) * 1024 + p.val) (ho : o.val = win0_3.index t (1 : Fin 2) * 1024 + q.val) :
    blockEntry (iblk m c 0 t) (iblk m c 1 t) (iblk m c 2 t) p q
      = flatEntry (V m c main_v14) (V m c main_v13) (V m c main_v15) r o := by
  obtain ⟨e0, e1, e2, e3, e4, e5, e6, e7⟩ := idx_facts t
  unfold blockEntry flatEntry
  refine congrArg₂ (· + ·) (Finset.sum_congr rfl fun k _ => congrArg₂ (· * ·) ?_ ?_) ?_
  · show V m c main_v14 (((cfg0.win 0).blk t).view.emb (ix2 p k)) = V m c main_v14 (ix2 r k)
    refine congrArg (V m c main_v14) (funext fun a => Fin.ext ?_)
    match a with
    | ⟨0, _⟩ => show win0_0.index t (0 : Fin 2) * 1024 + 1 * p.val = r.val; omega
    | ⟨1, _⟩ => show win0_0.index t (1 : Fin 2) * 1024 + 1 * k.val = k.val; omega
  · show V m c main_v13 (((cfg0.win 1).blk t).view.emb (ix2 q k)) = V m c main_v13 (ix2 o k)
    refine congrArg (V m c main_v13) (funext fun a => Fin.ext ?_)
    match a with
    | ⟨0, _⟩ => show win0_1.index t (0 : Fin 2) * 1024 + 1 * q.val = o.val; omega
    | ⟨1, _⟩ => show win0_1.index t (1 : Fin 2) * 1024 + 1 * k.val = k.val; omega
  · show V m c main_v15 (((cfg0.win 2).blk t).view.emb (ix2 (0 : Fin 1) q)) = V m c main_v15 (ix2 (0 : Fin 1) o)
    refine congrArg (V m c main_v15) (funext fun a => Fin.ext ?_)
    match a with
    | ⟨0, _⟩ => show win0_2.index t (0 : Fin 2) * 1 + 1 * 0 = 0; omega
    | ⟨1, _⟩ => show win0_2.index t (1 : Fin 2) * 1024 + 1 * q.val = o.val; omega

/-- WHAT POINT `t` WRITES BACK is block `t` of the flat result of the three staged arrays as the region finds them. -/
theorem flushed_eq (c : Dev nD) (t : Fin cfg0.N) :
    (dats m 0 c).flushed 3 t = ((cfg0.win 3).blk t).view.read (Elt Ideal) (flat (V m c main_v14) (V m c main_v13) (V m c main_v15)) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  refine (congrArg ((cfg0.win 3).cut (grid0.coords t)) (pay_eq (iblk m c 0 t) (iblk m c 1 t) (iblk m c 2 t))).trans ?_
  funext j
  exact block_entry m c t ⟨(j 0).val, (j 0).isLt⟩ ⟨(j 1).val, (j 1).isLt⟩
    ((((cfg0.win 3).blk t).view.emb j) 0) ((((cfg0.win 3).blk t).view.emb j) 1)
    (by show win0_3.index t (0 : Fin 2) * 1024 + 1 * (j 0).val = win0_3.index t (0 : Fin 2) * 1024 + (j 0).val; omega)
    (by show win0_3.index t (1 : Fin 2) * 1024 + 1 * (j 1).val = win0_3.index t (1 : Fin 2) * 1024 + (j 1).val; omega)

/-- An index of the flat array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v16).slice (win0_3.rect t)).set ↔ _
  rw [View.set_slice_whole, Rect.mem_set_unit]
  exact Iff.rfl

/-- THE COVER: entry `(r, o)` lies in the block of the point whose block index is `(r / 1024, o / 1024)`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE FLAT ARRAY after the region: the flat result of the three staged arrays as the region finds them. -/
theorem final (c : Dev nD) :
    (dats m 0 c).arrAt 3 cfg0.N = flat (V m c main_v14) (V m c main_v13) (V m c main_v15) :=
  (dats m 0 c).arrAt_eq_of_cover 3 _ (fun t _ => flushed_eq m c t) cover

end Cert.KernelIdeal.Blocks

end
-- ==== Proof.HostLines.lean ====
/-
  The kernel program's host lines, read back as the terms of the argument arrays they compute.

  Before the region sixteen operations run in a straight line: the buffer the region's first window stages then holds the
  compacted, row-flattened x, the second window's buffer the compacted W, the third's the bias as a one-row array. After
  the region one operation views the flat [8192, 4096] array the region wrote as [2, 4096, 4096].
-/
import proofs.«121855_j49443663512204_2_alg».proof.Proof.Gen.KernelIdeal.Frame
import proofs.«121855_j49443663512204_2_alg».proof.Proof.Compact
import Idealize.ShloMosaic.Lib.StableHlo.Run
import Idealize.ShloMosaic.Lib.Pipeline.Value
import Idealize.ShloMosaic.Lib.Pipeline.FrameSuffix

noncomputable section

namespace Cert.KernelIdeal.HostLines

open Cert.KernelIdeal Cert.KernelIdeal.Gen Cert.KernelIdeal.Compact Idealize.ShloMosaic Idealize.ShloMosaic.TcCoe Idealize.SL.Sem
  Idealize.ShloMosaic.StableHlo
open Idealize.ShloMosaic.Pipeline (Dat)

variable {F : FTy → Type} [FloatOps F] (m : (ℓ : Loc nD τ sig) → Buf (Elt F) ℓ)

/-- The first window's array as the region finds it: the 1024 kept columns of x, its rows flattened. -/
theorem V_v14 (c : Dev nD) : V m c main_v14 = compactX (F := F) (m ((c : Thread nD τ).loc main_arg0)) := by
  show StableHlo.after hostOps0 (fun b => m (c, b)) (Proc.devRef .tc main_v14) = _
  after_results
  rfl

/-- The second window's array as the region finds it: the 1024 kept columns of W. -/
theorem V_v13 (c : Dev nD) : V m c main_v13 = compactW (F := F) (m ((c : Thread nD τ).loc main_arg1)) := by
  show StableHlo.after hostOps0 (fun b => m (c, b)) (Proc.devRef .tc main_v13) = _
  after_results
  rfl

/-- The third window's array as the region finds it: the bias as a one-row array. -/
theorem V_v15 (c : Dev nD) : V m c main_v15 = biasRow (F := F) (m ((c : Thread nD τ).loc main_arg2)) := by
  show StableHlo.after hostOps0 (fun b => m (c, b)) (Proc.devRef .tc main_v15) = _
  after_results
  rfl

/-- The result buffer after the last host line: the array the region's output window wrote, viewed [2, 4096, 4096]. -/
theorem tail_v17 (c : Dev nD) :
    Pipeline.afterTail₀ cfgs (dats m) 0 (V0 m) [hostOps1] c main_v17 = unflatten (F := F) ((dats m 0 c).arrAt 3 cfg0.N) := by
  unfold Pipeline.afterTail₀
  show StableHlo.after hostOps1 _ (Proc.devRef .tc main_v17) = _
  after_results
  -- the fourth window's array is the buffer the last line reads: what the region left there is the window's final array
  have h : Pipeline.withArrays (cfgs 0).spec c (V0 m c) (fun w => (dats m 0 c).arrAt w (cfgs 0).N) (Proc.devRef .tc main_v16)
      = (dats m 0 c).arrAt 3 cfg0.N :=
    Pipeline.withArrays_arr spec0 launch0.win.arr_inj c _ _ 3
  rw [h]
  rfl

end Cert.KernelIdeal.HostLines

end
-- ==== Proof.KernelValue.lean ====
/-
  The kernel program's result as one function of its three arguments. After the region the flat [8192, 4096] array holds,
  at `(r, o)`, the contraction of row `r` of the compacted `x` with row `o` of the compacted `W`, plus the bias at `o`.
  Row `r = 4096·b + s` of the compacted `x` is row `(b, s)` of `x` at the kept columns, so, viewed [2, 4096, 4096], entry
  `(b, s, o)` is `(∑ over the kept columns d of x[b, s, d] · W[o, d]) + bias[o]`: the shared result.
-/
import proofs.«121855_j49443663512204_2_alg».proof.Proof.Spec
import proofs.«121855_j49443663512204_2_alg».proof.Proof.Compact
import proofs.«121855_j49443663512204_2_alg».proof.Proof.Blocks
import proofs.«121855_j49443663512204_2_alg».proof.Proof.HostLines

noncomputable section

open scoped BigOperators

namespace Cert.KernelIdeal.KernelValue

open Cert.KernelIdeal Cert.KernelIdeal.Gen Idealize.ShloMosaic Idealize.ShloMosaic.TcCoe Idealize.SL.Sem Idealize.ShloMosaic.ValueIdx
open Cert.KernelIdeal.Compact Cert.KernelIdeal.Blocks Cert.KernelIdeal.HostLines Cert.SparseCols
open Idealize.ShloMosaic.Pipeline (Dat)

/-- The flat result of the compacted arrays, viewed [2, 4096, 4096], is the shared result: entry `(b, s, o)` is flat entry
    `(4096·b + s, o)`, whose factors are `x[b, s, keptCol k]` and `W[o, keptCol k]` and whose bias term is `bias[o]`. -/
theorem unflatten_flat (x : FVec Ideal S2x4096x4096 .f32) (w : FVec Ideal S4096x4096 .f32) (bias : FVec Ideal S4096 .f32) :
    unflatten (F := Ideal) (flat (compactX x) (compactW w) (biasRow bias)) = result x w bias := by
  funext i
  obtain ⟨b, s, o, rfl⟩ : ∃ (b : Fin 2) (s : Fin 4096) (o : Fin 4096), i = ix3 b s o := ⟨i 0, i 1, i 2, eq_ix3 i⟩
  have hb := b.isLt
  have hs := s.isLt
  refine (unflatten_apply _ b s o ⟨b.val * 4096 + s.val, by omega⟩ rfl).trans ?_
  rw [flat_ix2, result_ix3]
  unfold flatEntry entry
  refine congrArg₂ (· + ·) (Finset.sum_congr rfl fun k _ => congrArg₂ (· * ·) ?_ ?_) ?_
  · exact compactX_apply x _ k b s rfl
  · exact compactW_apply w o k
  · exact biasRow_apply bias 0 o

variable (m : (ℓ : Loc nD τ sig) → Buf (Elt Ideal) ℓ) (ρ : Dev nD → PrngReg)

/-- The program's result buffer after the run: the host line after the region applied to the flat array the region
    leaves, the staged arrays being the host lines before the region applied to the arguments. -/
theorem result_eq (c : Dev nD) :
    Pipeline.afterTail₀ cfgs (dats m) 0 (V0 m) [hostOps1] c main_v17
      = result (m ((c : Thread nD τ).loc main_arg0)) (m ((c : Thread nD τ).loc main_arg1)) (m ((c : Thread nD τ).loc main_arg2)) := by
  refine (tail_v17 m c).trans ?_
  rw [Blocks.final m c, V_v14 m c, V_v13 m c, V_v15 m c]
  exact unflatten_flat _ _ _

/-- Every weakly fair execution of the kernel program terminates with the result buffer at the shared result of the
    arguments, and the arguments unchanged. -/
theorem run : θ_run defs (onTc (τ := τ) (main (F := Ideal))) ⟨m, fun _ => 0, ρ⟩ fun r => ∀ c : Dev nD,
      r.2.mem ((c : Thread nD τ).loc main_v17)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v17 (Pipeline.mem_restRefs_of main_v17 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KernelValue

end
-- ==== Proof.lean ====
/-
  A 2:8 column-sparse linear layer against its masked dense reference, over the extended reals.

  Both programs compute `out[b, s, o] = (∑ over the kept input columns d of x[b, s, d] · W[o, d]) + bias[o]`, a column
  being kept when `d mod 8` is 0 or 2. The reference multiplies `W` by the 0/1 mask of the kept columns and contracts over
  all 4096 columns; the kernel program gathers the 1024 kept columns of `x` and of `W` on the host and contracts over
  those, block by block on an 8 × 4 grid, each block's product started from a zero accumulator. On the extended reals a
  masked-out term is `x · (W · 0) = 0`, a kept one `x · (W · 1) = x · W`, and a finite sum may be re-indexed along the
  injection from the 1024 compacted positions into the 4096 columns: the two results are equal for every input, finite
  or not, so the precondition is never opened. A change of float format is the identity on extended reals, and the
  idealization rewrote no operation, so nothing is owed for it.

  The three frames: the two kernel programs' are the generated frame certificates; the reference is a straight-line
  host program and its frame is its run with the result dropped.
-/
import proofs.«121855_j49443663512204_2_alg».proof.Defs
import proofs.«121855_j49443663512204_2_alg».proof.Proof.Gen.Kernel.Frame
import proofs.«121855_j49443663512204_2_alg».proof.Proof.Gen.KernelIdeal.Frame
import proofs.«121855_j49443663512204_2_alg».proof.Proof.Gen.ReferenceIdeal
import proofs.«121855_j49443663512204_2_alg».proof.Proof.Gen.Pre_finite_inputs
import proofs.«121855_j49443663512204_2_alg».proof.Proof.RefRun
import proofs.«121855_j49443663512204_2_alg».proof.Proof.RefValue
import proofs.«121855_j49443663512204_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- Both programs end at the shared result of arguments that agree: the kernel program by its run read through the
    blocks and the host lines around the region, the reference by its run and the masked-sum law. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.RefValue.resultTerm_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
